-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S4096x512 .f32) (main_arg1 : IVec S4096 32) (main_arg2 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S10000 : Shape := ⟨1, ![10000]⟩
abbrev S1x10000 : Shape := ⟨2, ![1, 10000]⟩
abbrev S4096x1 : Shape := ⟨2, ![4096, 1]⟩
abbrev S2x1x1 : Shape := ⟨3, ![2, 1, 1]⟩
abbrev S128x512 : Shape := ⟨2, ![128, 512]⟩
abbrev S128x1 : Shape := ⟨2, ![128, 1]⟩
abbrev S1x1x1 : Shape := ⟨3, ![1, 1, 1]⟩
abbrev S1x1 : Shape := ⟨2, ![1, 1]⟩
abbrev S128x10000 : Shape := ⟨2, ![128, 10000]⟩
abbrev S128 : Shape := ⟨1, ![128]⟩
abbrev S1 : Shape := ⟨1, ![1]⟩

abbrev nBuf : Space → Nat
  | .hbm => 14
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S10000x512, .bf16⟩
  | .hbm, ⟨4, _⟩ => ⟨S10000x512, .f32⟩
  | .hbm, ⟨5, _⟩ => ⟨S_, .f32⟩
  | .hbm, ⟨6, _⟩ => ⟨S10000, .f32⟩
  | .hbm, ⟨7, _⟩ => ⟨S1x10000, .f32⟩
  | .hbm, ⟨8, _⟩ => ⟨S4096x1, .i32⟩
  | .hbm, ⟨9, _⟩ => ⟨S2x1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S10000x512, .bf16⟩
  | .local _ .vmem, ⟨3, _⟩ => ⟨S1x10000, .f32⟩
  | .local _ .vmem, ⟨4, _⟩ => ⟨S128x1, .i32⟩
  | .local _ .vmem, ⟨5, _⟩ => ⟨S128x1, .i32⟩
  | .local _ .vmem, ⟨6, _⟩ => ⟨S1x1x1, .f32⟩
  | .local _ .vmem, ⟨7, _⟩ => ⟨S1x1x1, .f32⟩
  | .local _ .vmem, ⟨8, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  reducesTo_S10000x512_S10000_d1 : S10000x512.ReducesTo [1] S10000
  h_S_ : 0 < S_.numel
  shapeCasts_S10000_S1x10000 : S10000.ShapeCasts S1x10000
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x512_S128x512_0_0 : ∀ a, (![0, 0] : Fin 2 → Nat) a + S128x512.size a ≤ S128x512.size a
  h_S128x512 : 0 < S128x512.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  reduces_S128x512_S128 : S128x512.Reduces [1] S128
  shapeCasts_S128_S128x1 : S128.ShapeCasts S128x1
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S128x1_S128x10000 : S128x1.Broadcasts S128x10000
  broadcasts_S1x10000_S128x10000 : S1x10000.Broadcasts S128x10000
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x10000_d1_w32 : S128x10000.Iotas .tc 32 [1]
  reduces_S128x10000_S128 : S128x10000.Reduces [1] S128
  reduces_S128x1_S1 : S128x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  dot_S128x512_S10000x512_S128x10000_1_1_0_0_n_n_wf : DotDims.WF S128x512 S10000x512 S128x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x512.size a
  hwx0_1 : ∀ i : grid0.Coords, EltTy.bits .bf16 = 32 ∨ (Rect.block (s := S10000x512) S10000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .i32 = 32 ∨ (Rect.block (s := S4096x1) S128x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S128x512_S10000x512_S128x10000_1_1_0_0_n_n : DotDims S128x512 S10000x512 S128x10000 where
  lhsContracting := [1]
  rhsContracting := [1]
  lhsNonContracting := [0]
  rhsNonContracting := [0]
  lhsBatch := []
  rhsBatch := []
  wf := dot_S128x512_S10000x512_S128x10000_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩

abbrev nBuf : Space → Nat
  | .hbm => 39
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S4096x10000, .f32⟩
  | .hbm, ⟨15, _⟩ => ⟨S_, .f32⟩
  | .hbm, ⟨16, _⟩ => ⟨S4096x10000, .f32⟩
  | .hbm, ⟨17, _⟩ => ⟨S4096x10000, .f32⟩
  | .hbm, ⟨18, _⟩ => ⟨S4096x10000, .f32⟩
  | .hbm, ⟨19, _⟩ => ⟨S4096x1, .i32⟩
  | .hbm, ⟨20, _⟩ => ⟨S10000, .i32⟩
  | .hbm, ⟨21, _⟩ => ⟨S1x10000, .i32⟩
  | .hbm, ⟨22, _⟩ => ⟨S4096x10000, .i32⟩
  | .hbm, ⟨23, _⟩ => ⟨S4096x10000, .i32⟩
  | .hbm, ⟨24, _⟩ => ⟨S4096x10000, .i1⟩
  | .hbm, ⟨25, _⟩ => ⟨S4096x10000, .f32⟩
  | .hbm, ⟨26, _⟩ => ⟨S4096x10000, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x10000, .f32⟩
  | .hbm, ⟨31, _⟩ => ⟨S4096x10000, .f32⟩
  | .hbm, ⟨32, _⟩ => ⟨S_, .f32⟩
  | .hbm, ⟨33, _⟩ => ⟨S4096x10000, .f32⟩
  | .hbm, ⟨34, _⟩ => ⟨S4096x10000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  bcast_S_S4096x10000 : S_.BroadcastsInDim S4096x10000 (![] : Fin 0 → Fin S4096x10000.rank)
  reducesTo_S4096x10000_S_d0_1 : S4096x10000.ReducesTo [0, 1] S_
  dot_S4096x512_S10000x512_S4096x10000_1_1_0_0_n_n_wf : DotDims.WF S4096x512 S10000x512 S4096x10000 [1] [1] [0] [0] [] []

variable [Facts₀]

def dot_S4096x512_S10000x512_S4096x10000_1_1_0_0_n_n : DotDims S4096x512 S10000x512 S4096x10000 where
  lhsContracting := [1]
  rhsContracting := [1]
  lhsNonContracting := [0]
  rhsNonContracting := [0]
  lhsBatch := []
  rhsBatch := []
  wf := dot_S4096x512_S10000x512_S4096x10000_1_1_0_0_n_n_wf

class Facts : Prop extends Facts₀ where

variable [Facts]
-- ==== Proof.Pieces.lean ====
/-
  What one grid point's body leaves behind, as values of what it loaded.

  The body reads the block of samples, all the classes, the classes' squared norms, the block's labels and the running
  total; it writes the running total plus the block's total back, and at the last point of a row of the grid it also
  copies that total into the output block.  At the first point of a row it first overwrites the running total with zero.
  The generated run records these effects as lists of stored pieces; here each list is read back as one value.
-/
import proofs.«145835_j3796751090214_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.CenterLoss.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point in the middle of a row: the running total `xs0` becomes the body's sum over `xs0` and the loaded blocks. -/
theorem sout_B (c : Dev nD) (i : grid0.Coords) (arg2 : Memref sig .tc .vmem S128x512 .f32) (harg2 : arg2.IsWhole) (arg3 : Memref sig .tc .vmem S10000x512 .bf16) (harg3 : arg3.IsWhole) (arg4 : Memref sig .tc .vmem S1x10000 .f32) (harg4 : arg4.IsWhole) (arg5 : Memref sig .tc .vmem S128x1 .i32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S128x512 .f32) (x1 : Vec F S10000x512 .bf16) (x2 : Vec F S1x10000 .f32) (x3 : Vec F S128x1 .i32) (xs0 : Vec F S1x1 .f32) :
    sout0_B_0 c i arg2 harg2 arg3 harg3 arg4 harg4 arg5 harg5 arg6 harg6 arg7 harg7 hc0 hc1 x0 x1 x2 x3 xs0 = k0_pay1 (k0_pay4 x0 x1 x2 x3 xs0) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S128x512) hz2, View.ld_unit_zero (S := S10000x512) hz2, View.ld_unit_zero (S := S1x10000) hz2,
    View.ld_unit_zero (S := S128x1) hz2, View.ld_unit_zero (S := S1x1) hz2, View.ld_unit_zero (S := S1x1x1) hz3]

/-- The last point of a row leaves the same running total … -/
theorem sout_C (c : Dev nD) (i : grid0.Coords) (arg2 : Memref sig .tc .vmem S128x512 .f32) (harg2 : arg2.IsWhole) (arg3 : Memref sig .tc .vmem S10000x512 .bf16) (harg3 : arg3.IsWhole) (arg4 : Memref sig .tc .vmem S1x10000 .f32) (harg4 : arg4.IsWhole) (arg5 : Memref sig .tc .vmem S128x1 .i32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S128x512 .f32) (x1 : Vec F S10000x512 .bf16) (x2 : Vec F S1x10000 .f32) (x3 : Vec F S128x1 .i32) (xs0 : Vec F S1x1 .f32) :
    sout0_C_0 c i arg2 harg2 arg3 harg3 arg4 harg4 arg5 harg5 arg6 harg6 arg7 harg7 hc0 hc1 x0 x1 x2 x3 xs0 = k0_pay1 (k0_pay4 x0 x1 x2 x3 xs0) := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread,
    View.ld_unit_zero (S := S128x512) hz2, View.ld_unit_zero (S := S10000x512) hz2, View.ld_unit_zero (S := S1x10000) hz2,
    View.ld_unit_zero (S := S128x1) hz2, View.ld_unit_zero (S := S1x1) hz2, View.ld_unit_zero (S := S1x1x1) hz3]

/-- … and copies it, reshaped, into the output block. -/
theorem out_C (c : Dev nD) (i : grid0.Coords) (arg2 : Memref sig .tc .vmem S128x512 .f32) (harg2 : arg2.IsWhole) (arg3 : Memref sig .tc .vmem S10000x512 .bf16) (harg3 : arg3.IsWhole) (arg4 : Memref sig .tc .vmem S1x10000 .f32) (harg4 : arg4.IsWhole) (arg5 : Memref sig .tc .vmem S128x1 .i32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S128x512 .f32) (x1 : Vec F S10000x512 .bf16) (x2 : Vec F S1x10000 .f32) (x3 : Vec F S128x1 .i32) (xs0 : Vec F S1x1 .f32) :
    out0_C_4 c i arg2 harg2 arg3 harg3 arg4 harg4 arg5 harg5 arg6 harg6 arg7 harg7 hc0 hc1 x0 x1 x2 x3 xs0 = k0_pay2 (k0_pay1 (k0_pay4 x0 x1 x2 x3 xs0)) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread,
    View.ld_unit_zero (S := S128x512) hz2, View.ld_unit_zero (S := S10000x512) hz2, View.ld_unit_zero (S := S1x10000) hz2,
    View.ld_unit_zero (S := S128x1) hz2, View.ld_unit_zero (S := S1x1) hz2, View.ld_unit_zero (S := S1x1x1) hz3]
  rw [View.readCov_unit_zero (S := S1x1) _ hz2]

/-- The first point of a row: the running total is first set to zero, then the block's total is added. -/
theorem sout_A (c : Dev nD) (i : grid0.Coords) (arg2 : Memref sig .tc .vmem S128x512 .f32) (harg2 : arg2.IsWhole) (arg3 : Memref sig .tc .vmem S10000x512 .bf16) (harg3 : arg3.IsWhole) (arg4 : Memref sig .tc .vmem S1x10000 .f32) (harg4 : arg4.IsWhole) (arg5 : Memref sig .tc .vmem S128x1 .i32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S128x512 .f32) (x1 : Vec F S10000x512 .bf16) (x2 : Vec F S1x10000 .f32) (x3 : Vec F S128x1 .i32) :
    sout0_A_0 c i arg2 harg2 arg3 harg3 arg4 harg4 arg5 harg5 arg6 harg6 arg7 harg7 hc0 hc1 x0 x1 x2 x3 = k0_pay1 (k0_pay4 x0 x1 x2 x3 (k0_pay3 (F := F))) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread,
    View.ld_unit_zero (S := S128x512) hz2, View.ld_unit_zero (S := S10000x512) hz2, View.ld_unit_zero (S := S1x10000) hz2,
    View.ld_unit_zero (S := S128x1) hz2, View.ld_unit_zero (S := S1x1) hz2, View.ld_unit_zero (S := S1x1x1) hz3]

end Cert.CenterLoss.Pieces

end
-- ==== Proof.Spec.lean ====
/-
  The center-loss total, as one function of the three argument arrays.

  For a sample `b` and a class `q` the squared distance is `|x_b|² + |c_q|² − 2⟨x_b, c_q⟩`; it is kept where the
  sample's label is `q` and replaced by zero elsewhere, and the result is clamped between two fixed numbers.  The
  loss is the sum of all these cells divided by the number of samples.  Here are the cell for the whole arrays
  (`cell`), the same cell written over one block of 128 samples whose class norms are already given as a row
  (`blockCell`), and a block's total (`blockTotal`).
-/
import Idealize.ShloMosaic.PureOps.Ideal
import Idealize.ShloMosaic.PureOps.Ideal.Laws
import Idealize.ShloMosaic.Lib.ValueIdx

noncomputable section

open scoped BigOperators

namespace Cert.CenterLoss

open Idealize.ShloMosaic Idealize.ShloMosaic.ValueIdx

/-- The lower clamp (the f32 nearest 1e-12). -/
abbrev lo : EReal := Ideal.ofBits .f32 0x2B8CBCCC#32
/-- The upper clamp (the f32 nearest 1e12). -/
abbrev hi : EReal := Ideal.ofBits .f32 0x5368D4A5#32
/-- The factor of the inner product. -/
abbrev two : EReal := Ideal.ofBits .f32 0x40000000#32
/-- The number of samples, as the divisor's word. -/
abbrev count : EReal := Ideal.ofBits .f32 0x45800000#32

/-- The clamped, masked squared distance between sample `b` and class `q`. -/
def cell (x : (⟨2, ![4096, 512]⟩ : Shape).Idx → EReal) (lab : (⟨1, ![4096]⟩ : Shape).Idx → BitVec 32)
    (ce : (⟨2, ![10000, 512]⟩ : Shape).Idx → EReal) (b : Fin 4096) (q : Fin 10000) : EReal :=
  min hi (max lo (if lab (ix1 b) = BitVec.ofNat 32 q.val then
    ((∑ k : Fin 512, x (ix2 b k) * x (ix2 b k)) + ∑ k : Fin 512, ce (ix2 q k) * ce (ix2 q k))
      - two * ∑ k : Fin 512, x (ix2 b k) * ce (ix2 q k) else 0))

/-- The same cell over one block: 128 samples `xb` with their labels `lb` as a column, all the classes `ce`, and the
    classes' squared norms `cn` as a row. -/
def blockCell (xb : (⟨2, ![128, 512]⟩ : Shape).Idx → EReal) (ce : (⟨2, ![10000, 512]⟩ : Shape).Idx → EReal)
    (cn : (⟨2, ![1, 10000]⟩ : Shape).Idx → EReal) (lb : (⟨2, ![128, 1]⟩ : Shape).Idx → BitVec 32)
    (p : Fin 128) (q : Fin 10000) : EReal :=
  min hi (max lo (if lb (ix2 p (0 : Fin 1)) = BitVec.ofNat 32 q.val then
    ((∑ k : Fin 512, xb (ix2 p k) * xb (ix2 p k)) + cn (ix2 (0 : Fin 1) q))
      - two * ∑ k : Fin 512, xb (ix2 p k) * ce (ix2 q k) else 0))

/-- The total of one block: the sum of its cells over the 128 samples and all classes. -/
def blockTotal (xb : (⟨2, ![128, 512]⟩ : Shape).Idx → EReal) (ce : (⟨2, ![10000, 512]⟩ : Shape).Idx → EReal)
    (cn : (⟨2, ![1, 10000]⟩ : Shape).Idx → EReal) (lb : (⟨2, ![128, 1]⟩ : Shape).Idx → BitVec 32) : EReal :=
  ∑ p : Fin 128, ∑ q : Fin 10000, blockCell xb ce cn lb p q

end Cert.CenterLoss

end
-- ==== Proof.LibMaskBit.lean ====
/-
  The equality bit of two machine words, used as a mask on the extended reals.

  A mask can be applied in two ways: by choosing between a value and zero on the comparison bit, or by multiplying
  the value by the bit read as a number.  Both give the value when the two words are equal and zero otherwise — the
  product also at the infinities, since zero times anything is zero on the extended reals.
-/
import Idealize.ShloMosaic.PureOps.Ideal
import Idealize.ShloMosaic.PureOps.Ideal.Laws

noncomputable section

namespace Cert.Lib.MaskBit

open Idealize.ShloMosaic

/-- Choosing by the equality bit of two words: the first value when they are equal, else the second. -/
theorem select_cmpi_eq {α : Type} {w : Nat} (a b : BitVec w) (u v : α) :
    Scalar.select (IntOp.cmpi .eq a b) u v = if a = b then u else v := by
  unfold Scalar.select IntOp.cmpi
  by_cases h : a = b
  · subst h; simp
  · have : (a == b) = false := by simpa using h
    simp [this, h]

/-- Multiplying by the equality bit read as a number: the value when the words are equal, else zero — for every
    extended real, the infinities included. -/
theorem mul_cmpi_eq {w : Nat} (a b : BitVec w) (u : EReal) :
    u * (((IntOp.cmpi .eq a b).toNat : ℝ) : EReal) = if a = b then u else 0 := by
  unfold IntOp.cmpi
  by_cases h : a = b
  · subst h; simp
  · have : (a == b) = false := by simpa using h
    simp [this, h]

end Cert.Lib.MaskBit

end
-- ==== Proof.LibAttentionDots.lean ====
/-
  Contraction sums of the matrix products of an attention layer, for any sizes, on the extended reals.

  * A rank-2 product whose right operand is contracted on its LAST axis, `[A,K] × [B,K] → [A,B]`: at output index
    (p, q) the sum over k of L (p, k) * R (q, k); with it a matmul into the zero accumulator and a host dot_general.
  * A projection `[B,S,D] × [N,D] → [B,S,N]` (einsum `bsd,nd→bsn`): at (b, s, n) the sum over k of
    L (b, s, k) * R (n, k).
  * The scores `[B,H,Q,D] × [B,H,K,D] → [B,H,Q,K]` with batch axes 0 and 1 (einsum `bhqd,bhkd→bhqk`): at
    (b, h, q, k) the sum over d of L (b, h, q, d) * R (b, h, k, d).
  * The weighted values `[B,H,Q,K] × [B,H,K,D] → [B,H,Q,D]` with batch axes 0 and 1 (einsum `bhqk,bhkd→bhqd`): at
    (b, h, q, d) the sum over k of L (b, h, q, k) * R (b, h, k, d).

  Each takes the dimension numbers as a record with six list hypotheses (closed by `rfl` on a printed record).
-/
import Idealize.ShloMosaic.PureOps.Ideal.Laws
import Idealize.ShloMosaic.Lib.ValueIdx

noncomputable section

open scoped BigOperators

namespace Cert.Lib.AttentionDots

open Idealize.ShloMosaic Idealize.ShloMosaic.ValueIdx

/-! ## Rank 2, the right operand contracted on its last axis -/

theorem trhs_idx {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 q k := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The contraction sum at (p, q): the sum over k of L (p, k) * R (q, k). -/
theorem trhs_sum {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (L : (⟨2, ![A, K]⟩ : Shape).Idx → EReal) (R : (⟨2, ![B, K]⟩ : Shape).Idx → EReal) (p : Fin A) (q : Fin B) :
    ∑ κ : d.contr.Idx, L (d.lhsIdx (ix2 p q) κ) * R (d.rhsIdx (ix2 p q) κ) = ∑ k : Fin K, L (ix2 p k) * R (ix2 q k) := by
  obtain ⟨hr, hs, h⟩ := trhs_idx d hlc hrc hln hrn hlb hrb
  rw [← Equiv.sum_comp (contrEquiv1 d K hr hs).symm]
  exact Finset.sum_congr rfl fun k _ => by rw [(h p q k).1, (h p q k).2]

/-- A matmul of these dimension numbers into the zero accumulator, read at (p, q). -/
theorem matmul_zero_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q)
      = ∑ k : Fin K, lhs (ix2 p k) * rhs (ix2 q k) :=
  (Ideal.matmul_constant_zero_apply d prec lhs rhs (ix2 p q)).trans (trhs_sum d hlc hrc hln hrn hlb hrb lhs rhs p q)

/-- A host dot_general of these dimension numbers, read at (p, q). -/
theorem dotGeneral_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![A, K]⟩ φ₁)
    (rhs : FVec Ideal ⟨2, ![B, K]⟩ φ₂) (p : Fin A) (q : Fin B) :
    FloatOps.dotGeneral d prec sched lhs rhs (ix2 p q) = ∑ k : Fin K, lhs (ix2 p k) * rhs (ix2 q k) :=
  (Ideal.dotGeneral_apply d prec sched lhs rhs (ix2 p q)).trans (trhs_sum d hlc hrc hln hrn hlb hrb lhs rhs p q)

/-! ## The projection `bsd,nd→bsn` -/

theorem proj_idx {B S D N : Nat} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = []) :
    ∃ (hr : d.contr.rank = 1) (hs : d.contr.size ⟨0, by omega⟩ = D), ∀ (b : Fin B) (s : Fin S) (n : Fin N) (k : Fin D),
      d.lhsIdx (ix3 b s n) ((contrEquiv1 d D hr hs).symm k) = ix3 b s k ∧
      d.rhsIdx (ix3 b s n) ((contrEquiv1 d D hr hs).symm k) = ix2 n k := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- A host dot_general `bsd,nd→bsn`, read at (b, s, n): the sum over k of L (b, s, k) * R (n, k). -/
theorem dotGeneral_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![B, S, D]⟩ φ₁)
    (rhs : FVec Ideal ⟨2, ![N, D]⟩ φ₂) (b : Fin B) (s : Fin S) (n : Fin N) :
    FloatOps.dotGeneral d prec sched lhs rhs (ix3 b s n) = ∑ k : Fin D, lhs (ix3 b s k) * rhs (ix2 n k) := by
  obtain ⟨hr, hs, h⟩ := proj_idx d hlc hrc hln hrn hlb hrb
  refine (Ideal.dotGeneral_apply d prec sched lhs rhs (ix3 b s n)).trans ?_
  rw [← Equiv.sum_comp (contrEquiv1 d D hr hs).symm]
  exact Finset.sum_congr rfl fun k _ => by rw [(h b s n k).1, (h b s n k).2]

/-! ## The scores `bhqd,bhkd→bhqk` -/

theorem scores_idx {B H Q K D : Nat} (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1]) :
    ∃ (hr : d.contr.rank = 1) (hs : d.contr.size ⟨0, by omega⟩ = D),
      ∀ (b : Fin B) (h : Fin H) (q : Fin Q) (k : Fin K) (e : Fin D),
      d.lhsIdx (ix4 b h q k) ((contrEquiv1 d D hr hs).symm e) = ix4 b h q e ∧
      d.rhsIdx (ix4 b h q k) ((contrEquiv1 d D hr hs).symm e) = ix4 b h k e := by
  obtain ⟨lc, rc, ln, rn, lb, rb, wf⟩ := d
  simp only at hlc hrc hln hrn hlb hrb
  subst hlc hrc hln hrn hlb hrb
  refine ⟨rfl, rfl, fun b h q k e => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqd,bhkd→bhqk`, read at (b, h, q, k): the sum over e of L (b, h, q, e) * R (b, h, k, e). -/
theorem dotGeneral_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (sched : HostSchedule) (lhs : FVec Ideal ⟨4, ![B, H, Q, D]⟩ φ₁)
    (rhs : FVec Ideal ⟨4, ![B, H, K, D]⟩ φ₂) (b : Fin B) (h : Fin H) (q : Fin Q) (k : Fin K) :
    FloatOps.dotGeneral d prec sched lhs rhs (ix4 b h q k) = ∑ e : Fin D, lhs (ix4 b h q e) * rhs (ix4 b h k e) := by
  obtain ⟨hr, hs, hx⟩ := scores_idx d hlc hrc hln hrn hlb hrb
  refine (Ideal.dotGeneral_apply d prec sched lhs rhs (ix4 b h q k)).trans ?_
  rw [← Equiv.sum_comp (contrEquiv1 d D hr hs).symm]
  exact Finset.sum_congr rfl fun e _ => by rw [(hx b h q k e).1, (hx b h q k e).2]

/-! ## The weighted values `bhqk,bhkd→bhqd` -/

theorem values_idx {B H Q K D : Nat} (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1]) :
    ∃ (hr : d.contr.rank = 1) (hs : d.contr.size ⟨0, by omega⟩ = K),
      ∀ (b : Fin B) (h : Fin H) (q : Fin Q) (e : Fin D) (k : Fin K),
      d.lhsIdx (ix4 b h q e) ((contrEquiv1 d K hr hs).symm k) = ix4 b h q k ∧
      d.rhsIdx (ix4 b h q e) ((contrEquiv1 d K hr hs).symm k) = ix4 b h k e := by
  obtain ⟨lc, rc, ln, rn, lb, rb, wf⟩ := d
  simp only at hlc hrc hln hrn hlb hrb
  subst hlc hrc hln hrn hlb hrb
  refine ⟨rfl, rfl, fun b h q e k => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqk,bhkd→bhqd`, read at (b, h, q, e): the sum over k of L (b, h, q, k) * R (b, h, k, e). -/
theorem dotGeneral_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (sched : HostSchedule) (lhs : FVec Ideal ⟨4, ![B, H, Q, K]⟩ φ₁)
    (rhs : FVec Ideal ⟨4, ![B, H, K, D]⟩ φ₂) (b : Fin B) (h : Fin H) (q : Fin Q) (e : Fin D) :
    FloatOps.dotGeneral d prec sched lhs rhs (ix4 b h q e) = ∑ k : Fin K, lhs (ix4 b h q k) * rhs (ix4 b h k e) := by
  obtain ⟨hr, hs, hx⟩ := values_idx d hlc hrc hln hrn hlb hrb
  refine (Ideal.dotGeneral_apply d prec sched lhs rhs (ix4 b h q e)).trans ?_
  rw [← Equiv.sum_comp (contrEquiv1 d K hr hs).symm]
  exact Finset.sum_congr rfl fun k _ => by rw [(hx b h q e k).1, (hx b h q e k).2]

/-! ## The same, spelled as programs print them (`matmul`, `Host.dotGeneral`): the forms a rewrite finds -/

theorem matmul_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    matmul d prec lhs rhs (constant ⟨2, ![A, B]⟩ .f32 0x00000000#32) (ix2 p q) = ∑ k : Fin K, lhs (ix2 p k) * rhs (ix2 q k) :=
  matmul_zero_trhs d hlc hrc hln hrn hlb hrb prec lhs rhs p q

theorem hostDot_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    Host.dotGeneral d prec lhs rhs (ix2 p q) = ∑ k : Fin K, lhs (ix2 p k) * rhs (ix2 q k) :=
  dotGeneral_trhs d hlc hrc hln hrn hlb hrb prec .single lhs rhs p q

theorem hostDot_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (lhs : FVec Ideal ⟨3, ![B, S, D]⟩ φ₁) (rhs : FVec Ideal ⟨2, ![N, D]⟩ φ₂)
    (b : Fin B) (s : Fin S) (n : Fin N) :
    Host.dotGeneral d prec lhs rhs (ix3 b s n) = ∑ k : Fin D, lhs (ix3 b s k) * rhs (ix2 n k) :=
  dotGeneral_proj d hlc hrc hln hrn hlb hrb prec .single lhs rhs b s n

theorem hostDot_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (lhs : FVec Ideal ⟨4, ![B, H, Q, D]⟩ φ₁) (rhs : FVec Ideal ⟨4, ![B, H, K, D]⟩ φ₂)
    (b : Fin B) (h : Fin H) (q : Fin Q) (k : Fin K) :
    Host.dotGeneral d prec lhs rhs (ix4 b h q k) = ∑ e : Fin D, lhs (ix4 b h q e) * rhs (ix4 b h k e) :=
  dotGeneral_scores d hlc hrc hln hrn hlb hrb prec .single lhs rhs b h q k

theorem hostDot_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (lhs : FVec Ideal ⟨4, ![B, H, Q, K]⟩ φ₁) (rhs : FVec Ideal ⟨4, ![B, H, K, D]⟩ φ₂)
    (b : Fin B) (h : Fin H) (q : Fin Q) (e : Fin D) :
    Host.dotGeneral d prec lhs rhs (ix4 b h q e) = ∑ k : Fin K, lhs (ix4 b h q k) * rhs (ix4 b h k e) :=
  dotGeneral_values d hlc hrc hln hrn hlb hrb prec .single lhs rhs b h q e

end Cert.Lib.AttentionDots

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibFirstAxis.lean ====
/-
  Reductions of a matrix along its FIRST axis, on the extended reals, for any sizes.

  Over a result index `q` (a column), the source index with coordinate `k` on the reduced axis is `(k, q)`; so a
  kernel's sum of an `[a, b]` matrix along axis 0 from the zero word is, at column `q`, the finite sum over the rows
  `k` of the entries `(k, q)`.  With `b = 1` this is the sum of a column vector `[a, 1]` into `[1]`.
-/
import Idealize.ShloMosaic.Lib.ValueIdx
import Idealize.ShloMosaic.PureOps.Ideal.Laws

noncomputable section

open scoped BigOperators

namespace Cert.Lib.FirstAxis

open Idealize.ShloMosaic Idealize.ShloMosaic.ValueIdx

/-- The source index over column `q` with row coordinate `k` is `(k, q)`. -/
theorem lift_first2 {a b : ℕ} (h : (⟨2, ![a, b]⟩ : Shape).Reduces [(0 : Fin 2)] ⟨1, ![b]⟩) (q : Fin b)
    (k : Fin ((⟨2, ![a, b]⟩ : Shape).size 0)) : h.lift (ix1 q) k = ix2 (k : Fin a) q := by
  funext c; apply Fin.ext; rw [h.lift_val]
  match c with
  | ⟨0, _⟩ => rfl
  | ⟨1, _⟩ => rfl

/-- A kernel's sum of a matrix along its first axis from the neutral word, at column `q`: the sum over the rows. -/
theorem laneSum_first2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_first2 h q k))

end Cert.Lib.FirstAxis

end
-- ==== Proof.LibKeepdimsColumn.lean ====
/-
  The "keepdims" column forms of a row statistic, read at an index, for any sizes: a vector `[a]` cast to a column `[a,1]`
  and back, a column `[a,1]` broadcast along the rows to `[a,b]`, and the composite a kernel writes after a row reduction —
  the statistic cast to a column and broadcast back over its row: entry (p, q) is the statistic of row p.
-/
import Idealize.ShloMosaic.Lib.ValueIdx
import Idealize.ShloMosaic.Lib.Pipeline.Value

namespace Cert.Lib.KeepdimsColumn

open Idealize.ShloMosaic Idealize.ShloMosaic.ValueIdx

variable {α : Type}

/-- A vector as a column: entry (p, 0) is the vector's entry p. -/
theorem vecToCol_apply {a : Nat} (v : (⟨1, ![a]⟩ : Shape).Idx → α) (h : (⟨1, ![a]⟩ : Shape).ShapeCasts ⟨2, ![a, 1]⟩)
    (p : Fin a) (z : Fin 1) : shapeCast (⟨2, ![a, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt; omega

/-- A column as a vector: entry p is the column's entry (p, 0). -/
theorem colToVec_apply {a : Nat} (v : (⟨2, ![a, 1]⟩ : Shape).Idx → α) (h : (⟨2, ![a, 1]⟩ : Shape).ShapeCasts ⟨1, ![a]⟩)
    (p : Fin a) : shapeCast (⟨1, ![a]⟩ : Shape) v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A column broadcast along the rows: entry (p, q) is the column's entry (p, 0). -/
theorem colToMat_apply {a b : Nat} (v : (⟨2, ![a, 1]⟩ : Shape).Idx → α) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => show 0 = if (1 : Nat) = 1 then 0 else q.val; rw [if_pos rfl]

/-- A row statistic put back on its row: entry (p, q) is the statistic of row p. -/
theorem statToMat_apply {a b : Nat} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo (⟨2, ![a, b]⟩ : Shape) (shapeCast (⟨2, ![a, 1]⟩ : Shape) v hc) hb (ix2 p q) = v (ix1 p) :=
  (colToMat_apply _ hb p q).trans (vecToCol_apply v hc p 0)

end Cert.Lib.KeepdimsColumn
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.Payload.lean ====
/-
  The arithmetic of one grid point of the center-loss kernel, read on the extended reals.

  For one block of 128 samples the kernel body forms, for every sample p and class q, the squared distance
  |x_p|² + |c_q|² − 2⟨x_p, c_q⟩ (the inner products by one matrix product against the transposed classes, the
  samples' squared norms by a sum along the rows, the classes' squared norms given as a row), keeps it where the
  sample's label is q and puts zero elsewhere, clamps the result between two fixed numbers, sums over the classes
  and then over the samples, and adds the total to the running accumulator.  Here that value is read at its single
  index: the accumulator plus the block's total of clamped cells.  The three small payloads are a cast of a
  one-element array to its own shape, the zero word, and a cast between two one-element shapes.
-/
import proofs.«145835_j3796751090214_1_alg».proof.Proof.Gen.KernelIdeal.Skeleton
import proofs.«145835_j3796751090214_1_alg».proof.Proof.Spec
import proofs.«145835_j3796751090214_1_alg».proof.Proof.LibMaskBit
import proofs.«145835_j3796751090214_1_alg».proof.Proof.LibAttentionDots
import proofs.«145835_j3796751090214_1_alg».proof.Proof.LibLastAxis
import proofs.«145835_j3796751090214_1_alg».proof.Proof.LibFirstAxis
import proofs.«145835_j3796751090214_1_alg».proof.Proof.LibKeepdimsColumn
import proofs.«145835_j3796751090214_1_alg».proof.Proof.LibRank2Layout
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.CenterLoss.Payload

open Idealize.ShloMosaic Idealize.ShloMosaic.ValueIdx Cert.KernelIdeal Cert.KernelIdeal.Gen

/-! ## The three small payloads -/

/-- A cast of an array to its own shape changes nothing. -/
theorem pay1_eq (v : FVec Ideal S1x1 .f32) : k0_pay1 (F := Ideal) v = v :=
  shapeCast_self v _

/-- The zero word, spread over the one-element array and cast to its own shape, reads zero. -/
theorem pay3_apply (j : S1x1.Idx) : k0_pay3 (F := Ideal) j = 0 := by
  show shapeCast S1x1 (broadcast S1x1 (Scalar.ofBits (F := Ideal) .f32 0x00000000#32)) shapeCasts_S1x1_S1x1 j = 0
  rw [shapeCast_self]
  exact Ideal.ofBits_zero_f32

/-- A cast between two one-element shapes: both arrays have a single entry, the same one. -/
theorem pay2_apply (v : Vec Ideal S1x1 .f32) (j' : S1x1x1.Idx) (j : S1x1.Idx) : k0_pay2 (F := Ideal) v j' = v j := by
  refine shapeCast_apply v shapeCasts_S1x1_S1x1x1 j' j ?_
  have h1 : (S1x1.rowMajor j).val < 1 := (S1x1.rowMajor j).isLt
  have h2 : (S1x1x1.rowMajor j').val < 1 := (S1x1x1.rowMajor j').isLt
  omega

/-! ## The block's payload -/

/-- The matrix of clamped, masked squared distances as the kernel body forms it from the block's four arrays. -/
def cells (x0 : Vec Ideal S128x512 .f32) (x1 : Vec Ideal S10000x512 .bf16) (x2 : Vec Ideal S1x10000 .f32)
    (x3 : Vec Ideal S128x1 .i32) : FVec Ideal S128x10000 .f32 :=
  minimumf (broadcast S128x10000 (Scalar.ofBits (F := Ideal) .f32 0x5368D4A5#32))
    (maximumf (broadcast S128x10000 (Scalar.ofBits (F := Ideal) .f32 0x2B8CBCCC#32))
      (select
        (cmpi .eq (broadcastTo S128x10000 (shapeCast S128x1 x3 shapeCasts_S128x1_S128x1) broadcasts_S128x1_S128x10000)
          (iota .tc S128x10000 32 [1] iota_S128x10000_d1_w32))
        (subf
          (addf
            (broadcastTo S128x10000
              (shapeCast S128x1 (multiReduction .add [1] S128 (mulf x0 x0) 0x00000000#32 reduces_S128x512_S128 (.inl rfl) rfl)
                shapeCasts_S128_S128x1) broadcasts_S128x1_S128x10000)
            (broadcastTo S128x10000 (shapeCast S1x10000 x2 shapeCasts_S1x10000_S1x10000) broadcasts_S1x10000_S128x10000))
          (mulf (broadcast S128x10000 (Scalar.ofBits (F := Ideal) .f32 0x40000000#32))
            (matmul dot_S128x512_S10000x512_S128x10000_1_1_0_0_n_n none (truncf .bf16 x0 bitsLt_bf16_f32)
              (shapeCast S10000x512 x1 shapeCasts_S10000x512_S10000x512 : FVec Ideal S10000x512 .bf16) (constant S128x10000 .f32 0x00000000#32))))
        (broadcast S128x10000 (Scalar.ofBits (F := Ideal) .f32 0x00000000#32))))

/-- The payload is the accumulator plus the double sum (classes, then samples) of that matrix. -/
theorem pay4_eq (x0 : Vec Ideal S128x512 .f32) (x1 : Vec Ideal S10000x512 .bf16) (x2 : Vec Ideal S1x10000 .f32)
    (x3 : Vec Ideal S128x1 .i32) (xs : Vec Ideal S1x1 .f32) :
    k0_pay4 (F := Ideal) x0 x1 x2 x3 xs
      = addf xs (shapeCast S1x1
          (multiReduction .add [0] S1
            (shapeCast S128x1
              (multiReduction .add [1] S128 (cells x0 x1 x2 x3) 0x00000000#32 reduces_S128x10000_S128 (.inl rfl) rfl)
              shapeCasts_S128_S128x1)
            0x00000000#32 reduces_S128x1_S1 (.inl rfl) rfl)
          shapeCasts_S1_S1x1) := rfl

/-- Summing a matrix along its rows and then the column of row sums along the samples, cast to the one-element
    array and read at its single index: the double sum over samples and classes. -/
theorem total_apply (c : FVec Ideal S128x10000 .f32) (j : S1x1.Idx) :
    shapeCast S1x1
      (multiReduction .add [0] S1
        (shapeCast S128x1
          (multiReduction .add [1] S128 c 0x00000000#32 reduces_S128x10000_S128 (.inl rfl) rfl)
          shapeCasts_S128_S128x1)
        0x00000000#32 reduces_S128x1_S1 (.inl rfl) rfl)
      shapeCasts_S1_S1x1 j = ∑ p : Fin 128, ∑ q : Fin 10000, c (ix2 p q) := by
  have hj : j = ix2 (0 : Fin 1) (0 : Fin 1) :=
    (eq_ix2 j).trans (congrArg₂ ix2 (Fin.eq_zero _) (Fin.eq_zero _))
  subst hj
  refine (Cert.Lib.KeepdimsColumn.vecToCol_apply _ shapeCasts_S1_S1x1 (0 : Fin 1) (0 : Fin 1)).trans ?_
  refine (Cert.Lib.FirstAxis.laneSum_first2 _ 0x00000000#32 reduces_S128x1_S1 (.inl rfl) rfl (0 : Fin 1)).trans ?_
  refine Finset.sum_congr rfl fun p _ => ?_
  refine (Cert.Lib.KeepdimsColumn.vecToCol_apply _ shapeCasts_S128_S128x1 p (0 : Fin 1)).trans ?_
  exact Cert.Lib.LastAxis.laneSum_last2 c 0x00000000#32 reduces_S128x10000_S128 (.inl rfl) rfl p

/-- One cell of the matrix is the specification's cell of the block. -/
theorem cells_apply (x0 : Vec Ideal S128x512 .f32) (x1 : Vec Ideal S10000x512 .bf16) (x2 : Vec Ideal S1x10000 .f32)
    (x3 : Vec Ideal S128x1 .i32) (p : Fin 128) (q : Fin 10000) :
    cells x0 x1 x2 x3 (ix2 p q) = Cert.CenterLoss.blockCell x0 x1 x2 x3 p q := by
  -- the label column spread along the classes
  have hA : broadcastTo S128x10000 (shapeCast S128x1 x3 shapeCasts_S128x1_S128x1) broadcasts_S128x1_S128x10000 (ix2 p q)
      = x3 (ix2 p (0 : Fin 1)) := by
    rw [shapeCast_self]; exact Rank2.bcastCol_apply x3 broadcasts_S128x1_S128x10000 p q
  -- the class index
  have hI : iota .tc S128x10000 32 [1] iota_S128x10000_d1_w32 (ix2 p q) = BitVec.ofNat 32 q.val :=
    iota_single_apply .tc S128x10000 32 1 iota_S128x10000_d1_w32 (ix2 p q)
  -- the sample's squared norm
  have hN : broadcastTo S128x10000
        (shapeCast S128x1 (multiReduction .add [1] S128 (mulf (F := Ideal) (φ := .f32) x0 x0) 0x00000000#32 reduces_S128x512_S128 (.inl rfl) rfl)
          shapeCasts_S128_S128x1) broadcasts_S128x1_S128x10000 (ix2 p q)
      = ∑ k : Fin 512, x0 (ix2 p k) * x0 (ix2 p k) := by
    exact (Cert.Lib.KeepdimsColumn.statToMat_apply _ shapeCasts_S128_S128x1 broadcasts_S128x1_S128x10000 p q).trans
      (Cert.Lib.LastAxis.laneSum_last2 (mulf (F := Ideal) (φ := .f32) x0 x0) 0x00000000#32 reduces_S128x512_S128 (.inl rfl) rfl p)
  -- the class's squared norm
  have hC : broadcastTo S128x10000 (shapeCast S1x10000 x2 shapeCasts_S1x10000_S1x10000) broadcasts_S1x10000_S128x10000 (ix2 p q)
      = x2 (ix2 (0 : Fin 1) q) := by
    rw [shapeCast_self]; exact Rank2.bcastRow_apply x2 broadcasts_S1x10000_S128x10000 p q
  -- the inner product
  have hM : matmul dot_S128x512_S10000x512_S128x10000_1_1_0_0_n_n none (truncf .bf16 x0 bitsLt_bf16_f32)
        (shapeCast S10000x512 x1 shapeCasts_S10000x512_S10000x512 : FVec Ideal S10000x512 .bf16)
        (constant S128x10000 .f32 0x00000000#32) (ix2 p q)
      = ∑ k : Fin 512, x0 (ix2 p k) * x1 (ix2 q k) := by
    rw [shapeCast_self]
    exact Cert.Lib.AttentionDots.matmul_trhs dot_S128x512_S10000x512_S128x10000_1_1_0_0_n_n rfl rfl rfl rfl rfl rfl none
      (truncf .bf16 x0 bitsLt_bf16_f32) x1 p q
  show (min _ (max _ (Scalar.select (IntOp.cmpi .eq _ _) ((_ + _) - _ * _) _)) : EReal) = _
  rw [hA, hI, hN, hC, hM, Cert.Lib.MaskBit.select_cmpi_eq]
  simp only [broadcast_apply, Ideal.ofBits_def, Ideal.ofBits_zero_f32]
  rfl

/-- The block's payload at its single index: the accumulator plus the block's total. -/
theorem pay4_apply (x0 : Vec Ideal S128x512 .f32) (x1 : Vec Ideal S10000x512 .bf16) (x2 : Vec Ideal S1x10000 .f32)
    (x3 : Vec Ideal S128x1 .i32) (xs : Vec Ideal S1x1 .f32) (j : S1x1.Idx) :
    k0_pay4 (F := Ideal) x0 x1 x2 x3 xs j = xs j + Cert.CenterLoss.blockTotal x0 x1 x2 x3 := by
  rw [pay4_eq]
  refine (addf_apply _ _ j).trans ?_
  refine congrArg (xs j + ·) ?_
  refine (total_apply (cells x0 x1 x2 x3) j).trans ?_
  exact Finset.sum_congr rfl fun p _ => Finset.sum_congr rfl fun q _ => cells_apply x0 x1 x2 x3 p q

end Cert.CenterLoss.Payload

end
-- ==== Proof.Blocks.lean ====
/-
  The blocks the grid points read, as entries of the arrays the launch finds.

  Point `t` of the 2 × 16 grid reads samples `128·t … 128·t + 127` (its block of `x` and of the labels) and, at
  every point, all the classes and all their squared norms.  The arrays behind the last three windows are computed
  by the lines before the launch: the classes unchanged (a change of float format), the squared norms as a row
  (a sum along each class, reshaped), the labels as a column (a reshape).
-/
import proofs.«145835_j3796751090214_1_alg».proof.Proof.Gen.KernelIdeal.Frame
import proofs.«145835_j3796751090214_1_alg».proof.Proof.LibKeepdimsColumn
import proofs.«145835_j3796751090214_1_alg».proof.Proof.LibLastAxis
import Idealize.ShloMosaic.Lib.Pipeline.Value
import Idealize.ShloMosaic.Lib.ValueIdx
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.CenterLoss.Blocks

open Cert.KernelIdeal Cert.KernelIdeal.Gen

variable {F : FTy → Type} [FloatOps F]
variable (m : (ℓ : Loc nD τ sig) → Buf (Elt F) ℓ)

/-- Where each window's block sits at point `t`: the sample windows at block row `t`, the class windows at the origin. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- Sample `p` of block `t` is sample `128·t + p`. -/
theorem row_lt (t : Fin cfg0.N) (p : Fin 128) : 128 * t.val + p.val < 4096 := by
  have := lt_of_lt_of_eq t.isLt (show cfg0.N = 32 from N_0); have := p.isLt; omega

/-- The block of samples at point `t`, entry (p, k): sample `128·t + p`, feature `k`. -/
theorem blk0_apply (c : Dev nD) (t : Fin cfg0.N) (p : Fin 128) (k : Fin 512) :
    (iblk m c 0 t : Vec F S128x512 .f32) (ix2 p k) = V m c main_arg0 (ix2 ⟨128 * t.val + p.val, row_lt t p⟩ k) := by
  unfold iblk
  rw [View.read_apply]
  show V m c main_arg0 _ = V m c main_arg0 _
  refine congrArg (V m c main_arg0) (funext fun a => Fin.ext ?_)
  match a with
  | ⟨0, _⟩ => show win0_0.index t 0 * 128 + 1 * p.val = 128 * t.val + p.val; rw [(idx0 t).1]; omega
  | ⟨1, _⟩ => show win0_0.index t 1 * 512 + 1 * k.val = k.val; rw [(idx0 t).2]; omega

/-- The block of classes at any point is the whole array. -/
theorem blk1_apply (c : Dev nD) (t : Fin cfg0.N) (q : Fin 10000) (k : Fin 512) :
    (iblk m c 1 t : Vec F S10000x512 .bf16) (ix2 q k) = V m c main_v0 (ix2 q k) := by
  unfold iblk
  rw [View.read_apply]
  show V m c main_v0 _ = V m c main_v0 _
  refine congrArg (V m c main_v0) (funext fun a => Fin.ext ?_)
  match a with
  | ⟨0, _⟩ => show win0_1.index t 0 * 10000 + 1 * q.val = q.val; rw [(idx1 t).1]; omega
  | ⟨1, _⟩ => show win0_1.index t 1 * 512 + 1 * k.val = k.val; rw [(idx1 t).2]; omega

/-- The block of class norms at any point is the whole row. -/
theorem blk2_apply (c : Dev nD) (t : Fin cfg0.N) (z : Fin 1) (q : Fin 10000) :
    (iblk m c 2 t : Vec F S1x10000 .f32) (ix2 z q) = V m c main_v3 (ix2 z q) := by
  unfold iblk
  rw [View.read_apply]
  show V m c main_v3 _ = V m c main_v3 _
  refine congrArg (V m c main_v3) (funext fun a => Fin.ext ?_)
  match a with
  | ⟨0, _⟩ => show win0_2.index t 0 * 1 + 1 * z.val = z.val; rw [(idx2 t).1]; omega
  | ⟨1, _⟩ => show win0_2.index t 1 * 10000 + 1 * q.val = q.val; rw [(idx2 t).2]; omega

/-- The block of labels at point `t`, entry (p, 0): the label of sample `128·t + p`. -/
theorem blk3_apply (c : Dev nD) (t : Fin cfg0.N) (p : Fin 128) (z : Fin 1) :
    (iblk m c 3 t : Vec F S128x1 .i32) (ix2 p z) = V m c main_v4 (ix2 ⟨128 * t.val + p.val, row_lt t p⟩ z) := by
  unfold iblk
  rw [View.read_apply]
  show V m c main_v4 _ = V m c main_v4 _
  refine congrArg (V m c main_v4) (funext fun a => Fin.ext ?_)
  match a with
  | ⟨0, _⟩ => show win0_3.index t 0 * 128 + 1 * p.val = 128 * t.val + p.val; rw [(idx3 t).1]; omega
  | ⟨1, _⟩ => show win0_3.index t 1 * 1 + 1 * z.val = z.val; rw [(idx3 t).2]; omega

end Cert.CenterLoss.Blocks

end
-- ==== Proof.LibHostSumRank2.lean ====
/-
  Two rank-2 layout facts on the extended reals, for any sizes.

  * A vector `[b]` reshaped to a one-row matrix `[1, b]`: entry (0, q) is the vector's entry q.
  * The host's sum of a matrix `[a, b]` along its last axis from an initial value, at row p: the initial value plus
    the finite sum of the row's entries.
-/
import proofs.«145835_j3796751090214_1_alg».proof.Proof.LibLastAxis
import Idealize.ShloMosaic.Lib.Pipeline.Value
import Idealize.ShloMosaic.Lib.ValueIdx
import Idealize.ShloMosaic.PureOps.Ideal.Laws

noncomputable section

open scoped BigOperators

namespace Cert.Lib.HostSumRank2

open Idealize.ShloMosaic Idealize.ShloMosaic.ValueIdx

/-- A vector laid out as a one-row matrix: entry (0, q) is the vector's entry q. -/
theorem vecToRow_apply {α : Type} {b : Nat} (v : (⟨1, ![b]⟩ : Shape).Idx → α) (h : (⟨1, ![b]⟩ : Shape).ShapeCasts ⟨2, ![1, b]⟩)
    (z : Fin 1) (q : Fin b) : shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- The host's sum of a matrix along its last axis, at row p: the initial value plus the sum of the row. -/
theorem hostSum_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduceAdd x v h' hu (ix1 p) = v ix0 + ∑ k : Fin b, x (ix2 p k) := by
  show Ideal.hostReduceAdd h' x (v (Shape.Idx.first hu)) (ix1 p) = _
  rw [Ideal.hostReduceAdd_single h' h, eq_ix0 (Shape.Idx.first hu)]
  exact congrArg (v ix0 + ·) (Finset.sum_congr rfl fun k _ => congrArg x (Cert.Lib.LastAxis.lift_last2 h p k))

end Cert.Lib.HostSumRank2

end
-- ==== Proof.Prefix.lean ====
/-
  The arrays the lines before the launch compute, read at an index on the extended reals.

  The classes handed to the kernel are the classes themselves (a change of float format is the identity on the
  extended reals); the row of squared class norms holds at class `q` the sum over the features of the squared
  entries; the column of labels holds at sample `b` that sample's label.
-/
import proofs.«145835_j3796751090214_1_alg».proof.Proof.Gen.KernelIdeal.Frame
import proofs.«145835_j3796751090214_1_alg».proof.Proof.LibKeepdimsColumn
import proofs.«145835_j3796751090214_1_alg».proof.Proof.LibHostSumRank2
import Idealize.ShloMosaic.Lib.Pipeline.Value
import Idealize.ShloMosaic.Lib.ValueIdx
import Idealize.ShloMosaic.Lib.StableHlo.Run
import Idealize.ShloMosaic.PureOps.Ideal.Laws

noncomputable section

open scoped BigOperators
open Idealize.ShloMosaic Idealize.ShloMosaic.TcCoe Idealize.SL.Sem Idealize.ShloMosaic.ValueIdx

namespace Cert.CenterLoss.Prefix

open Cert.KernelIdeal Cert.KernelIdeal.Gen

variable (m : (ℓ : Loc nD τ sig) → Buf (Elt Ideal) ℓ)

/-- The three argument arrays on core `c`, as functions of an index: the samples, the labels, the classes. -/
abbrev A0 (c : Dev nD) : S4096x512.Idx → EReal := m ((c : Thread nD τ).loc main_arg0)
abbrev A1 (c : Dev nD) : S4096.Idx → BitVec 32 := m ((c : Thread nD τ).loc main_arg1)
abbrev A2 (c : Dev nD) : S10000x512.Idx → EReal := m ((c : Thread nD τ).loc main_arg2)

/-- The classes as the kernel's window finds them are the classes: a change of float format is the identity. -/
theorem V_v0_apply (c : Dev nD) (q : Fin 10000) (k : Fin 512) :
    (V m c main_v0 : S10000x512.Idx → EReal) (ix2 q k) = A2 m c (ix2 q k) := by
  show StableHlo.after hostOps0 (fun b => m (c, b)) (Proc.devRef .tc main_v0) (ix2 q k) = _
  after_results
  rfl

/-- The row of squared class norms: at class `q` the sum over the features of the squared entries. -/
theorem V_v3_apply (c : Dev nD) (z : Fin 1) (q : Fin 10000) :
    (V m c main_v3 : S1x10000.Idx → EReal) (ix2 z q) = ∑ k : Fin 512, A2 m c (ix2 q k) * A2 m c (ix2 q k) := by
  show StableHlo.after hostOps0 (fun b => m (c, b)) (Proc.devRef .tc main_v3) (ix2 z q) = _
  after_results
  refine (Cert.Lib.HostSumRank2.vecToRow_apply _ shapeCasts_S10000_S1x10000 z q).trans ?_
  refine (Cert.Lib.HostSumRank2.hostSum_last2 _ _ reducesTo_S10000x512_S10000_d1 (by decide) h_S_ q).trans ?_
  show Ideal.ofBits .f32 0x00000000#32 + _ = _
  rw [Ideal.ofBits_zero_f32, zero_add]
  rfl

/-- The column of labels: at sample `b` that sample's label. -/
theorem V_v4_apply (c : Dev nD) (b : Fin 4096) (z : Fin 1) :
    (V m c main_v4 : S4096x1.Idx → BitVec 32) (ix2 b z) = A1 m c (ix1 b) := by
  show StableHlo.after hostOps0 (fun b => m (c, b)) (Proc.devRef .tc main_v4) (ix2 b z) = _
  after_results
  exact Cert.Lib.KeepdimsColumn.vecToCol_apply _ shapeCasts_S4096_S4096x1 b z

end Cert.CenterLoss.Prefix

end
-- ==== Proof.LibBlockSums.lean ====
import Mathlib

/-! # Sums over a range cut into equal blocks, and running sums

Two regroupings of a finite sum in a commutative additive monoid (the extended reals among them: no
finiteness is asked):

* `sum_blocks`: a sum over `a · b` consecutive positions is the sum, over the `a` blocks of `b` consecutive
  positions, of each block's sum: `∑ n < a, ∑ q < b, f (b · n + q) = ∑ j < a · b, f j`. The literal forms
  `8 · 512 = 4096` and `4 · 1024 = 4096` state it over `Fin 4096`.
* `foldl_add_eq_sum` / `runningSum_eq_sum`: an accumulator that starts at `0` and adds `g n` at step `n`
  holds, after all `N` steps, `∑ n < N, g n`. -/

open scoped BigOperators

namespace Cert.BlockSums

variable {M : Type*} [AddCommMonoid M]

/-- Position `b · n + q` of block `n`, offset `q`, lies below `a · b`. -/
theorem block_pos_lt {a b : ℕ} (n : Fin a) (q : Fin b) : b * n.val + q.val < a * b := by
  have hn := n.isLt
  have hq := q.isLt
  calc b * n.val + q.val < b * n.val + b := by omega
    _ = b * (n.val + 1) := by ring
    _ ≤ b * a := Nat.mul_le_mul_left b hn
    _ = a * b := Nat.mul_comm b a

/-- A sum over `a · b` positions, block by block. -/
theorem sum_blocks (a b : ℕ) (f : ℕ → M) :
    ∑ n : Fin a, ∑ q : Fin b, f (b * n.val + q.val) = ∑ j : Fin (a * b), f j.val := by
  rw [← Fintype.sum_prod_type', ← Equiv.sum_comp (finProdFinEquiv (m := a) (n := b))]
  refine Finset.sum_congr rfl fun p _ => ?_
  show f (b * p.1.val + p.2.val) = f (p.2.val + b * p.1.val)
  rw [Nat.add_comm]

/-- The same over `Fin N` with `N = a · b`, for a function of the position as an element of `Fin N`. -/
theorem sum_blocks_fin {N : ℕ} (a b : ℕ) (h : a * b = N) (f : Fin N → M) :
    ∑ n : Fin a, ∑ q : Fin b, f ⟨b * n.val + q.val, h ▸ block_pos_lt n q⟩ = ∑ j : Fin N, f j := by
  subst h
  have key := sum_blocks a b (fun j => if hj : j < a * b then f ⟨j, hj⟩ else 0)
  simp only [block_pos_lt, dif_pos, Fin.is_lt, Fin.eta] at key
  exact key

/-- Eight blocks of 512 positions make up 4096 positions. -/
theorem sum_blocks_8_512 (f : Fin 4096 → M) :
    ∑ n : Fin 8, ∑ q : Fin 512, f ⟨512 * n.val + q.val, by have := n.isLt; have := q.isLt; omega⟩
      = ∑ j : Fin 4096, f j :=
  sum_blocks_fin 8 512 rfl f

/-- Four blocks of 1024 positions make up 4096 positions. -/
theorem sum_blocks_4_1024 (f : Fin 4096 → M) :
    ∑ n : Fin 4, ∑ q : Fin 1024, f ⟨1024 * n.val + q.val, by have := n.isLt; have := q.isLt; omega⟩
      = ∑ j : Fin 4096, f j :=
  sum_blocks_fin 4 1024 rfl f

/-- A left fold that adds `g n` at step `n`, from `init`, over the first `N` steps, is `init` plus the sum. -/
theorem foldl_add_eq_sum (g : ℕ → M) (init : M) (N : ℕ) :
    (List.range N).foldl (fun acc n => acc + g n) init = init + ∑ n ∈ Finset.range N, g n := by
  induction N with
  | zero => simp
  | succ N ih =>
    rw [List.range_succ, List.foldl_append, ih, Finset.sum_range_succ]
    show init + ∑ n ∈ Finset.range N, g n + g N = _
    rw [add_assoc]

/-- The running sum: `acc 0 = 0`, `acc (n + 1) = acc n + g n`. -/
def runningSum (g : ℕ → M) : ℕ → M
  | 0 => 0
  | n + 1 => runningSum g n + g n

/-- After `N` steps the running sum is `∑ n < N, g n`. -/
theorem runningSum_eq_sum (g : ℕ → M) (N : ℕ) : runningSum g N = ∑ n ∈ Finset.range N, g n := by
  induction N with
  | zero => rfl
  | succ N ih => rw [runningSum, ih, Finset.sum_range_succ]

/-- Any accumulator sequence that starts at `0` and adds `g n` at step `n` is, after `N` steps, the sum over
    `Fin N` of `g`. -/
theorem acc_eq_sum_fin (g : ℕ → M) (acc : ℕ → M) (h0 : acc 0 = 0) (hs : ∀ n, acc (n + 1) = acc n + g n) (N : ℕ) :
    acc N = ∑ n : Fin N, g n.val := by
  rw [Fin.sum_univ_eq_sum_range (fun n => g n) N]
  induction N with
  | zero => simpa using h0
  | succ N ih => rw [hs, ih, Finset.sum_range_succ]

end Cert.BlockSums
-- ==== Proof.Sums.lean ====
/-
  The grid's order of summation gives the plain double sum.

  The kernel adds the cells block by block: two rows of the grid, sixteen blocks per row, 128 samples per block, so
  sample `128·(16·r + s) + p` is met at row `r`, block `s`, position `p`.  Every sample is met exactly once, and
  addition on the extended reals is commutative and associative, so the total is the sum over all 4096 samples.
-/
import proofs.«145835_j3796751090214_1_alg».proof.Proof.Spec
import proofs.«145835_j3796751090214_1_alg».proof.Proof.LibBlockSums

noncomputable section

open scoped BigOperators

namespace Cert.CenterLoss.Sums

open Idealize.ShloMosaic Idealize.ShloMosaic.ValueIdx

variable (x : (⟨2, ![4096, 512]⟩ : Shape).Idx → EReal) (lab : (⟨1, ![4096]⟩ : Shape).Idx → BitVec 32)
  (ce : (⟨2, ![10000, 512]⟩ : Shape).Idx → EReal)

/-- The sum of sample `b`'s cells over all classes (zero past the last sample). -/
def rowN (b : ℕ) : EReal := if h : b < 4096 then ∑ q : Fin 10000, cell x lab ce ⟨b, h⟩ q else 0

theorem rowN_of_lt (b : ℕ) (h : b < 4096) : rowN x lab ce b = ∑ q : Fin 10000, cell x lab ce ⟨b, h⟩ q := dif_pos h

/-- Rows of the grid, blocks of a row, samples of a block: together, every sample once. -/
theorem regroup :
    ∑ r : Fin 2, ∑ s : Fin 16, ∑ p : Fin 128, rowN x lab ce (128 * (16 * r.val + s.val) + p.val)
      = ∑ b : Fin 4096, ∑ q : Fin 10000, cell x lab ce b q := by
  have h1 : ∑ r : Fin 2, ∑ s : Fin 16, ∑ p : Fin 128, rowN x lab ce (128 * (16 * r.val + s.val) + p.val)
      = ∑ n : Fin 32, ∑ p : Fin 128, rowN x lab ce (128 * n.val + p.val) :=
    Cert.BlockSums.sum_blocks 2 16 (fun n => ∑ p : Fin 128, rowN x lab ce (128 * n + p.val))
  have h2 : ∑ n : Fin 32, ∑ p : Fin 128, rowN x lab ce (128 * n.val + p.val) = ∑ b : Fin 4096, rowN x lab ce b.val :=
    Cert.BlockSums.sum_blocks 32 128 (rowN x lab ce)
  rw [h1, h2]
  exact Finset.sum_congr rfl fun b _ => rowN_of_lt x lab ce b.val b.isLt

end Cert.CenterLoss.Sums

end
-- ==== Proof.Accum.lean ====
/-
  The running total, point by point.

  After point `n` the scratch cell holds the sum of the block totals of the points of `n`'s row of the grid up to
  `n`: the first point of a row starts from zero, every other point adds to what the point before left.  After the
  last point of a row the output's staging buffer holds the same number.  A block's total is the sum, over its 128
  samples, of each sample's cells over all classes.
-/
import proofs.«145835_j3796751090214_1_alg».proof.Proof.Pieces
import proofs.«145835_j3796751090214_1_alg».proof.Proof.Payload
import proofs.«145835_j3796751090214_1_alg».proof.Proof.Blocks
import proofs.«145835_j3796751090214_1_alg».proof.Proof.Prefix
import proofs.«145835_j3796751090214_1_alg».proof.Proof.Sums

noncomputable section

open scoped BigOperators
open Idealize.ShloMosaic Idealize.ShloMosaic.TcCoe Idealize.SL.Sem Idealize.ShloMosaic.ValueIdx

namespace Cert.CenterLoss.Accum

open Cert.KernelIdeal Cert.KernelIdeal.Gen Cert.CenterLoss.Prefix

variable (m : (ℓ : Loc nD τ sig) → Buf (Elt Ideal) ℓ)

/-- The total of the block that point `n` reads. -/
def bt (c : Dev nD) (n : ℕ) (h : n < cfg0.N) : EReal :=
  blockTotal (iblk m c 0 ⟨n, h⟩ : Vec Ideal S128x512 .f32) (iblk m c 1 ⟨n, h⟩ : Vec Ideal S10000x512 .bf16)
    (iblk m c 2 ⟨n, h⟩ : Vec Ideal S1x10000 .f32) (iblk m c 3 ⟨n, h⟩ : Vec Ideal S128x1 .i32)

/-- The same, zero past the grid. -/
def btN (c : Dev nD) (n : ℕ) : EReal := if h : n < cfg0.N then bt m c n h else 0

theorem btN_of_lt (c : Dev nD) (n : ℕ) (h : n < cfg0.N) : btN m c n = bt m c n h := dif_pos h

/-- The running total after point `n`: from zero at the first point of a row, else from the point before. -/
def accN (c : Dev nD) : ℕ → EReal
  | 0 => 0 + btN m c 0
  | n + 1 => (if (n + 1) % 16 = 0 then 0 else accN c n) + btN m c (n + 1)

/-- One point's arithmetic: the running total it found plus its block's total. -/
theorem step (x0 : Vec Ideal S128x512 .f32) (x1 : Vec Ideal S10000x512 .bf16) (x2 : Vec Ideal S1x10000 .f32)
    (x3 : Vec Ideal S128x1 .i32) (xs : Vec Ideal S1x1 .f32) (j : S1x1.Idx) :
    k0_pay1 (F := Ideal) (k0_pay4 x0 x1 x2 x3 xs) j = xs j + blockTotal x0 x1 x2 x3 := by
  rw [Cert.CenterLoss.Payload.pay1_eq]
  exact Cert.CenterLoss.Payload.pay4_apply x0 x1 x2 x3 xs j

/-- The scratch cell after point `n` is the running total. -/
theorem scratch_eq (c : Dev nD) : ∀ (n : ℕ) (h : n < cfg0.N) (j : S1x1.Idx),
    ((outsAt0 m c n h).2 : S1x1.Idx → EReal) j = accN m c n
  | 0, h, j => by
    rw [outsAt0_A m c ⟨0, h⟩ rfl (by dsimp only; omega)]
    dsimp only
    rw [Cert.CenterLoss.Pieces.sout_A, step, Cert.CenterLoss.Payload.pay3_apply]
    show 0 + bt m c 0 h = 0 + btN m c 0
    rw [btN_of_lt m c 0 h]
  | n + 1, h, j => by
    have hN : cfg0.N = 32 := N_0
    by_cases h0 : (n + 1) % 16 = 0
    · have h1 : ¬(n + 1) % 16 = 15 := by omega
      rw [outsAt0_A m c ⟨n + 1, h⟩ h0 h1]
      dsimp only
      rw [Cert.CenterLoss.Pieces.sout_A, step, Cert.CenterLoss.Payload.pay3_apply]
      show 0 + bt m c (n + 1) h = (if (n + 1) % 16 = 0 then 0 else accN m c n) + btN m c (n + 1)
      rw [if_pos h0, btN_of_lt m c (n + 1) h]
    · by_cases h1 : (n + 1) % 16 = 15
      · rw [outsAt0_C m c ⟨n + 1, h⟩ h0 h1]
        dsimp only
        rw [Cert.CenterLoss.Pieces.sout_C, step]
        show ((outsAt0 m c n _).2 : S1x1.Idx → EReal) j + bt m c (n + 1) h = (if (n + 1) % 16 = 0 then 0 else accN m c n) + btN m c (n + 1)
        rw [scratch_eq c n _ j, if_neg h0, btN_of_lt m c (n + 1) h]
      · rw [outsAt0_B m c ⟨n + 1, h⟩ h0 h1]
        dsimp only
        rw [Cert.CenterLoss.Pieces.sout_B, step]
        show ((outsAt0 m c n _).2 : S1x1.Idx → EReal) j + bt m c (n + 1) h = (if (n + 1) % 16 = 0 then 0 else accN m c n) + btN m c (n + 1)
        rw [scratch_eq c n _ j, if_neg h0, btN_of_lt m c (n + 1) h]

/-- After the last point of a row the output's staging buffer holds the running total too. -/
theorem out_eq (c : Dev nD) (t : Fin cfg0.N) (h15 : t.val % 16 = 15) (y : S1x1x1.Idx) :
    ((outsAt0 m c t.val t.isLt).1 : S1x1x1.Idx → EReal) y = accN m c t.val := by
  have h0 : ¬t.val % 16 = 0 := by omega
  have e := scratch_eq m c t.val t.isLt (ix2 (0 : Fin 1) (0 : Fin 1))
  rw [outsAt0_C m c t h0 h15] at e ⊢
  rw [← e]
  dsimp only
  rw [Cert.CenterLoss.Pieces.out_C, Cert.CenterLoss.Pieces.sout_C]
  exact Cert.CenterLoss.Payload.pay2_apply _ y _

/-- Within a row the running total is the sum of the row's block totals so far. -/
theorem accN_row (c : Dev nD) (r : ℕ) : ∀ s : ℕ, s < 16 →
    accN m c (16 * r + s) = ∑ i ∈ Finset.range (s + 1), btN m c (16 * r + i)
  | 0, _ => by
    rw [Finset.sum_range_one]
    cases r with
    | zero => show 0 + btN m c 0 = btN m c 0; rw [zero_add]
    | succ r =>
      show accN m c ((16 * r + 15) + 1) = btN m c ((16 * r + 15) + 1)
      show (if (16 * r + 15 + 1) % 16 = 0 then 0 else accN m c (16 * r + 15)) + btN m c (16 * r + 15 + 1) = _
      rw [if_pos (by omega), zero_add]
  | s + 1, hs => by
    rw [Finset.sum_range_succ, ← accN_row c r s (by omega)]
    show (if (16 * r + s + 1) % 16 = 0 then 0 else accN m c (16 * r + s)) + btN m c (16 * r + s + 1) = _
    rw [if_neg (by omega)]
    rfl

/-- The block of point `n` holds samples `128·n … 128·n + 127`: its total is the sum of their rows of cells. -/
theorem btN_eq (c : Dev nD) (n : ℕ) (h : n < cfg0.N) :
    btN m c n = ∑ p : Fin 128, Cert.CenterLoss.Sums.rowN (A0 m c) (A1 m c) (A2 m c) (128 * n + p.val) := by
  rw [btN_of_lt m c n h]
  unfold bt blockTotal
  refine Finset.sum_congr rfl fun p _ => ?_
  have hb := Cert.CenterLoss.Blocks.row_lt ⟨n, h⟩ p
  rw [Cert.CenterLoss.Sums.rowN_of_lt _ _ _ _ hb]
  refine Finset.sum_congr rfl fun q _ => ?_
  unfold blockCell cell
  rw [Cert.CenterLoss.Blocks.blk3_apply m c ⟨n, h⟩ p 0, V_v4_apply, Cert.CenterLoss.Blocks.blk2_apply m c ⟨n, h⟩ 0 q, V_v3_apply]
  simp only [Cert.CenterLoss.Blocks.blk0_apply m c ⟨n, h⟩ p, Cert.CenterLoss.Blocks.blk1_apply m c ⟨n, h⟩ q, V_v0_apply, V_main_arg0]
  rfl

end Cert.CenterLoss.Accum

end
-- ==== Proof.Final.lean ====
/-
  From the write-backs to the output array.

  The output has one entry per row of the grid.  Its block is written back only after the last point of a row
  (points 15 and 31), and the block of row `r` is entry `r`.  So if after the last point of each row the staging
  buffer holds the value `G r`, the output array ends holding `G`.
-/
import proofs.«145835_j3796751090214_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.CenterLoss.Final

open Cert.KernelIdeal Cert.KernelIdeal.Gen

variable (m : (ℓ : Loc nD τ sig) → Buf (Elt Ideal) ℓ)

/-- The output's block at point `t` is entry `t / 16`, and has one element. -/
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)
theorem xsize4 : ∀ t : Fin cfg0.N, win0_4.xsize (grid0.coords t) 0 = 1 ∧ win0_4.xsize (grid0.coords t) 1 = 1 ∧ win0_4.xsize (grid0.coords t) 2 = 1 :=
  (by decide +kernel : ∀ t : Fin grid0.N, win0_4.xsize (grid0.coords t) 0 = 1 ∧ win0_4.xsize (grid0.coords t) 1 = 1 ∧ win0_4.xsize (grid0.coords t) 2 = 1)

theorem row_lt (t : Fin cfg0.N) : t.val / 16 < 2 := by
  have := lt_of_lt_of_eq t.isLt (show cfg0.N = 32 from N_0); omega

/-- What a write-back writes: the one entry of its row. -/
theorem flushed_eq (c : Dev nD) (G : S2x1x1.Idx → EReal)
    (hG : ∀ (t : Fin cfg0.N), t.val % 16 = 15 → ∀ y : S1x1x1.Idx,
      ((outsAt0 m c t.val t.isLt).1 : S1x1x1.Idx → EReal) y = G (ix3 ⟨t.val / 16, row_lt t⟩ (0 : Fin 1) (0 : Fin 1)))
    (t : Fin cfg0.N) (hf : (cfg0.win 4).flush t = true) :
    (dats m 0 c).flushed 4 t = ((cfg0.win 4).blk t).view.read (Elt Ideal) G := by
  have h15 := (flush0_4 t).mp hf
  show (cfg0.win 4).cut (grid0.coords t) ((dats m 0 c).after 4 t) = _
  rw [after0_4]
  funext y
  rw [View.read_apply]
  show ((outsAt0 m c t.val t.isLt).1 : S1x1x1.Idx → EReal) y = G (((cfg0.win 4).blk t).view.emb y)
  rw [hG t h15 y]
  refine congrArg G (funext fun a => Fin.ext ?_)
  have hy0 : (y 0).val < 1 := (y 0).isLt
  have hy1 : (y 1).val < 1 := (y 1).isLt
  have hy2 : (y 2).val < 1 := (y 2).isLt
  match a with
  | ⟨0, _⟩ => show t.val / 16 = win0_4.index t 0 * 1 + 1 * (y 0).val; rw [(idx4 t).1]; omega
  | ⟨1, _⟩ => show 0 = win0_4.index t 1 * 1 + 1 * (y 1).val; rw [(idx4 t).2.1]; omega
  | ⟨2, _⟩ => show 0 = win0_4.index t 2 * 1 + 1 * (y 2).val; rw [(idx4 t).2.2]; omega

/-- So the output array ends holding `G`: the last point of row `r` covers entry `r`. -/
theorem final (c : Dev nD) (G : S2x1x1.Idx → EReal)
    (hG : ∀ (t : Fin cfg0.N), t.val % 16 = 15 → ∀ y : S1x1x1.Idx,
      ((outsAt0 m c t.val t.isLt).1 : S1x1x1.Idx → EReal) y = G (ix3 ⟨t.val / 16, row_lt t⟩ (0 : Fin 1) (0 : Fin 1))) :
    (dats m 0 c).arrAt 4 cfg0.N = G :=
  (dats m 0 c).arrAt_eq_of_cover 4 G (flushed_eq m c G hG) fun i => by
    have hN : cfg0.N = 32 := N_0
    have h0 : (i 0).val < 2 := (i 0).isLt
    have h1 : (i 1).val < 1 := (i 1).isLt
    have h2 : (i 2).val < 1 := (i 2).isLt
    refine ⟨⟨16 * (i 0).val + 15, by rw [hN]; omega⟩, (flush0_4 _).mpr (by show (16 * (i 0).val + 15) % 16 = 15; omega), ?_⟩
    generalize ht : (⟨16 * (i 0).val + 15, by rw [hN]; omega⟩ : Fin cfg0.N) = t
    have htv : t.val = 16 * (i 0).val + 15 := by rw [← ht]
    show i ∈ ((View.whole main_v5).slice (win0_4.rect t)).set
    rw [View.set_slice_whole, Rect.mem_set_unit]
    intro a
    match a with
    | ⟨0, _⟩ =>
      show win0_4.index t 0 * win0_4.size 0 ≤ (i 0 : Nat) ∧ (i 0 : Nat) < win0_4.index t 0 * win0_4.size 0 + win0_4.xsize (grid0.coords t) 0
      rw [(idx4 t).1, (xsize4 t).1]; show t.val / 16 * 1 ≤ _ ∧ _ < t.val / 16 * 1 + 1; omega
    | ⟨1, _⟩ =>
      show win0_4.index t 1 * win0_4.size 1 ≤ (i 1 : Nat) ∧ (i 1 : Nat) < win0_4.index t 1 * win0_4.size 1 + win0_4.xsize (grid0.coords t) 1
      rw [(idx4 t).2.1, (xsize4 t).2.1]; omega
    | ⟨2, _⟩ =>
      show win0_4.index t 2 * win0_4.size 2 ≤ (i 2 : Nat) ∧ (i 2 : Nat) < win0_4.index t 2 * win0_4.size 2 + win0_4.xsize (grid0.coords t) 2
      rw [(idx4 t).2.2, (xsize4 t).2.2]; omega

end Cert.CenterLoss.Final

end
-- ==== Proof.LibSumIdx3.lean ====
/-
  A sum over a rank-3 index set, by coordinates.

  An index of the shape [n0, n1, n2] is a triple of coordinates, one below each extent, so the index set is in
  bijection with the product Fin n0 × Fin n1 × Fin n2 and a sum over it is the triple sum over the coordinates,
  the outermost coordinate first.  This is the rank-3 companion of the rank-2 statement
  (`ValueIdx.idxEquiv2`, `ValueIdx.sum_idx2`) and is proved the same way.
-/
import Idealize.ShloMosaic.Lib.ValueIdx

noncomputable section

open scoped BigOperators

namespace Idealize.ShloMosaic.ValueIdx3

open Idealize.ShloMosaic Idealize.ShloMosaic.ValueIdx

/-- A rank-3 index set is the product of its three coordinate ranges: an index goes to its coordinates, and a
    triple of coordinates to the index `ix3` builds from them … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, in the order of the axes. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx3

end
-- ==== Proof.KernelValue.lean ====
/-
  The kernel's run, read: the result is the loss.

  The output array ends with, in entry `r`, the running total after the last point of row `r` of the grid, which is
  the sum of that row's sixteen block totals.  The lines after the launch add the two entries from zero and divide by
  the number of samples.  Regrouping the blocks, the sum is the sum of every sample's cells over all classes.
-/
import proofs.«145835_j3796751090214_1_alg».proof.Proof.Accum
import proofs.«145835_j3796751090214_1_alg».proof.Proof.Final
import proofs.«145835_j3796751090214_1_alg».proof.Proof.LibSumIdx3
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.CenterLoss.KernelValue

open Cert.KernelIdeal Cert.KernelIdeal.Gen Cert.CenterLoss.Prefix Cert.CenterLoss.Accum

variable (m : (ℓ : Loc nD τ sig) → Buf (Elt Ideal) ℓ) (ρ : Dev nD → PrngReg)

/-- What the output array ends holding: entry `r` is the running total after the last point of row `r`. -/
def G (c : Dev nD) : S2x1x1.Idx → EReal := fun i => accN m c (16 * (i 0).val + 15)

theorem final (c : Dev nD) : (dats m 0 c).arrAt 4 cfg0.N = G m c :=
  Cert.CenterLoss.Final.final m c (G m c) fun t h15 y => by
    rw [out_eq m c t h15 y]
    show accN m c t.val = accN m c (16 * (t.val / 16) + 15)
    exact congrArg (accN m c) (by omega)

/-- The loss of the argument arrays on core `c`. -/
def loss (c : Dev nD) : EReal :=
  Ideal.div (∑ b : Fin 4096, ∑ q : Fin 10000, cell (A0 m c) (A1 m c) (A2 m c) b q) count

/-- The two entries of the output add up to the sum of all cells. -/
theorem G_sum (c : Dev nD) :
    ∑ i : S2x1x1.Idx, G m c i = ∑ b : Fin 4096, ∑ q : Fin 10000, cell (A0 m c) (A1 m c) (A2 m c) b q := by
  have hN : cfg0.N = 32 := N_0
  rw [Idealize.ShloMosaic.ValueIdx3.sum_idx3, ← Cert.CenterLoss.Sums.regroup]
  refine Finset.sum_congr rfl fun r _ => ?_
  rw [Fin.sum_univ_one, Fin.sum_univ_one]
  show accN m c (16 * r.val + 15) = _
  rw [accN_row m c r.val 15 (by omega), ← Fin.sum_univ_eq_sum_range (fun i => btN m c (16 * r.val + i)) 16]
  refine Finset.sum_congr rfl fun s _ => ?_
  exact btN_eq m c (16 * r.val + s.val) (by rw [hN]; have := r.isLt; have := s.isLt; omega)

/-- The lines after the launch: the result buffer ends holding the loss. -/
theorem tail_eq (c : Dev nD) :
    (Pipeline.afterTail₀ cfgs (dats m) 0 (V0 m) [hostOps1] c main_v7 : S_.Idx → EReal) = fun _ => loss m c := by
  unfold Pipeline.afterTail₀
  show StableHlo.after hostOps1 _ (Proc.devRef .tc main_v7) = _
  after_results
  have hw : Pipeline.withArrays (cfgs 0).spec c (V0 m c) (fun w => (dats m 0 c).arrAt w (cfgs 0).N)
      (Proc.devRef .tc main_v5) = G m c :=
    (Pipeline.withArrays_arr spec0 launch0.win.arr_inj c _ _ 4).trans (final m c)
  rw [hw]
  funext i
  have hsum : Host.reduceAdd (F := Ideal) (G m c) (constant (F := Ideal) S_ .f32 0x00000000#32) reducesTo_S2x1x1_S_d0_1_2 h_S_ i
      = (constant (F := Ideal) S_ .f32 0x00000000#32) (Shape.Idx.first h_S_) + ∑ j : S2x1x1.Idx, G m c j := by
    simp only [Host.reduceAdd, Ideal.hostReduceAdd_def]
    exact Ideal.hostReduceAdd_total reducesTo_S2x1x1_S_d0_1_2 (fun b => b.elim0) (G m c) _ i
  show Ideal.div (Host.reduceAdd (F := Ideal) (G m c) (constant (F := Ideal) S_ .f32 0x00000000#32) reducesTo_S2x1x1_S_d0_1_2 h_S_ i)
      (Ideal.ofBits .f32 0x45800000#32) = loss m c
  rw [hsum, constant_apply, Ideal.ofBits_zero_f32, zero_add, G_sum]
  rfl

/-- THE RUN, READ: every weakly fair execution ends with the result buffer at the loss and the arguments unchanged. -/
theorem run : θ_run defs (onTc (τ := τ) (main (F := Ideal))) ⟨m, fun _ => 0, ρ⟩ (fun r => ∀ c : Dev nD,
      r.2.mem ((c.tc : Thread nD τ).loc main_v7) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.CenterLoss.KernelValue

end
-- ==== Proof.RefValue.lean ====
/-
  The reference program's result, read as one sum of cells on the extended reals.

  The reference computes, for every sample `b` and class `q`, the squared distance
  `|x_b|² + |c_q|² − 2⟨x_b, c_q⟩`, multiplies it by the indicator "the label of `b` is `q`" read as a number,
  clamps the product between two fixed numbers, adds all the clamped entries starting from zero, and divides the
  total by the number of samples.  Each operation of the generated reading is unfolded at the index `(b, q)`; the
  composed index functions are identified with the plain coordinate constructors, the two zero starting values drop
  out, and multiplying by the indicator is the same as choosing between the value and zero.  The sum over the
  rank-two index set is then the double sum over the two coordinates.
-/
import proofs.«145835_j3796751090214_1_alg».proof.Proof.Gen.ReferenceIdeal.Read
import proofs.«145835_j3796751090214_1_alg».proof.Proof.Spec
import proofs.«145835_j3796751090214_1_alg».proof.Proof.LibMaskBit
import Idealize.ShloMosaic.Lib.ValueIdx
import Idealize.ShloMosaic.Lib.Pipeline.Value
import Idealize.ShloMosaic.PureOps.Ideal.Laws

noncomputable section

open scoped BigOperators

namespace Cert.CenterLoss.Ref

open Idealize.ShloMosaic Idealize.ShloMosaic.ValueIdx Cert.ReferenceIdeal Cert.ReferenceIdeal.Gen Cert.ReferenceIdeal.Read

/-- The row of squared sample norms, broadcast along the classes: at `(b, q)` it is `∑ₖ x[b,k]²`. -/
theorem xsq_apply (x0 : (⟨S4096x512, .f32⟩ : BufTy).Contents (Elt Ideal)) (b : Fin 4096) (q : Fin 10000) :
    val_main_v6 (F := Ideal) x0 (ix2 b q) = ∑ k : Fin 512, x0 (ix2 b k) * x0 (ix2 b k) := by
  rw [val_main_v6_apply, val_main_v2_apply, val_main_v1_apply, val_main_cst_apply, Ideal.ofBits_def,
    Ideal.ofBits_zero_f32, zero_add]
  refine Finset.sum_congr rfl fun k _ => ?_
  have e : idx_main_v1 (idx_main_v2 (idx_main_v6 (ix2 b q))) k = ix2 b k :=
    funext fun a => Fin.ext (by match a with | ⟨0, _⟩ => rfl | ⟨1, _⟩ => rfl)
  rw [val_main_v0_apply, e, Ideal.mulf_def]

/-- The column of squared class norms, broadcast along the samples: at `(b, q)` it is `∑ₖ c[q,k]²`. -/
theorem csq_apply (x2 : (⟨S10000x512, .f32⟩ : BufTy).Contents (Elt Ideal)) (b : Fin 4096) (q : Fin 10000) :
    val_main_v7 (F := Ideal) x2 (ix2 b q) = ∑ k : Fin 512, x2 (ix2 q k) * x2 (ix2 q k) := by
  rw [val_main_v7_apply, val_main_v5_apply, val_main_v4_apply, val_main_cst_0_apply, Ideal.ofBits_def,
    Ideal.ofBits_zero_f32, zero_add]
  refine Finset.sum_congr rfl fun k _ => ?_
  have e : idx_main_v4 (idx_main_v5 (idx_main_v7 (ix2 b q))) k = ix2 q k :=
    funext fun a => Fin.ext (by match a with | ⟨0, _⟩ => rfl | ⟨1, _⟩ => rfl)
  rw [val_main_v3_apply, e, Ideal.mulf_def]

/-- The inner products: at `(b, q)` the contraction is `∑ₖ x[b,k]·c[q,k]`. -/
theorem dot_apply (x0 : (⟨S4096x512, .f32⟩ : BufTy).Contents (Elt Ideal))
    (x2 : (⟨S10000x512, .f32⟩ : BufTy).Contents (Elt Ideal)) (b : Fin 4096) (q : Fin 10000) :
    val_main_v9 (F := Ideal) x0 x2 (ix2 b q) = ∑ k : Fin 512, x0 (ix2 b k) * x2 (ix2 q k) := by
  rw [val_main_v9_apply]
  refine Finset.sum_congr rfl fun k _ => ?_
  have el : lidx_main_v9 (ix2 b q) k = ix2 b k :=
    funext fun a => Fin.ext (by match a with | ⟨0, _⟩ => rfl | ⟨1, _⟩ => rfl)
  have er : ridx_main_v9 (ix2 b q) k = ix2 q k :=
    funext fun a => Fin.ext (by match a with | ⟨0, _⟩ => rfl | ⟨1, _⟩ => rfl)
  rw [el, er]

/-- The indicator of "the label of sample `b` is the class `q`", read as a number. -/
theorem mask_apply (x1 : (⟨S4096, .i32⟩ : BufTy).Contents (Elt Ideal)) (b : Fin 4096) (q : Fin 10000) :
    val_main_v19 (F := Ideal) x1 (ix2 b q)
      = (((IntOp.cmpi .eq (x1 (ix1 b)) (BitVec.ofNat 32 q.val)).toNat : ℝ) : EReal) := by
  rw [val_main_v19_apply, val_main_v18_apply, val_main_v16_apply, val_main_v13_apply, val_main_v17_apply,
    val_main_v15_apply, val_main_v14_apply]
  have e : idx_main_v13 (idx_main_v16 (ix2 b q)) = ix1 b :=
    funext fun a => Fin.ext (by match a with | ⟨0, _⟩ => rfl)
  rw [e]
  rfl

/-- One entry of the clamped, masked distance matrix is the specification's cell. -/
theorem cell_apply (x0 : (⟨S4096x512, .f32⟩ : BufTy).Contents (Elt Ideal)) (x1 : (⟨S4096, .i32⟩ : BufTy).Contents (Elt Ideal))
    (x2 : (⟨S10000x512, .f32⟩ : BufTy).Contents (Elt Ideal)) (b : Fin 4096) (q : Fin 10000) :
    val_main_v21 (F := Ideal) x0 x1 x2 (ix2 b q) = Cert.CenterLoss.cell x0 x1 x2 b q := by
  rw [val_main_v21_apply, val_main_call0_v4_apply, val_main_call0_v3_apply, val_main_cst_3_apply,
    val_main_call0_v2_apply, val_main_call0_v1_apply, val_main_call0_v0_apply, val_main_cst_2_apply,
    val_main_v20_apply, val_main_v12_apply, val_main_v8_apply, val_main_v11_apply, val_main_v10_apply,
    val_main_cst_1_apply, xsq_apply, csq_apply, dot_apply, mask_apply]
  simp only [Ideal.minimumf_def, Ideal.maximumf_def, Ideal.mulf_def, Ideal.subf_def, Ideal.addf_def, Ideal.ofBits_def]
  rw [Cert.Lib.MaskBit.mul_cmpi_eq]
  rfl

/-- The reference's result: the sum of all cells divided by the number of samples. -/
theorem ref_value (x0 : (⟨S4096x512, .f32⟩ : BufTy).Contents (Elt Ideal)) (x1 : (⟨S4096, .i32⟩ : BufTy).Contents (Elt Ideal))
    (x2 : (⟨S10000x512, .f32⟩ : BufTy).Contents (Elt Ideal)) (i : S_.Idx) :
    val_main_v23 (F := Ideal) x0 x1 x2 i
      = Ideal.div (∑ b : Fin 4096, ∑ q : Fin 10000, Cert.CenterLoss.cell x0 x1 x2 b q) Cert.CenterLoss.count := by
  rw [val_main_v23_apply, Ideal.hostDivf_def, val_main_v22_apply, val_main_cst_4_apply, val_main_cst_5_apply,
    Ideal.ofBits_def, Ideal.ofBits_def, Ideal.ofBits_zero_f32, zero_add, ValueIdx.sum_idx2]
  refine congrArg (Ideal.div · _) ?_
  exact Finset.sum_congr rfl fun b _ => Finset.sum_congr rfl fun q _ => cell_apply x0 x1 x2 b q

end Cert.CenterLoss.Ref

end
-- ==== Proof.lean ====
/-
  The certificate of the center-loss kernel against its reference.

  Both programs compute, for every sample `b` and class `q`, the squared distance `|x_b|² + |c_q|² − 2⟨x_b, c_q⟩`,
  keep it where the label of `b` is `q` and put zero elsewhere, clamp it between two fixed numbers, add all these
  cells and divide by the number of samples.  The reference does it on whole arrays in one sweep.  The kernel walks
  a 2 × 16 grid of blocks of 128 samples, keeps a running total per row of the grid, writes each row's total to its
  own output entry, and the lines after the launch add the two entries and divide.  On the extended reals addition is
  commutative and associative, so the two orders of summation give the same number; a change of float format is the
  identity; choosing between a value and zero by a bit equals multiplying the value by the bit.  No finiteness of the
  inputs is needed.  The idealization rewrote nothing, so its statement is trivial.
-/
import proofs.«145835_j3796751090214_1_alg».proof.Defs
import proofs.«145835_j3796751090214_1_alg».proof.Proof.Gen.Kernel
import proofs.«145835_j3796751090214_1_alg».proof.Proof.Gen.Kernel.Frame
import proofs.«145835_j3796751090214_1_alg».proof.Proof.Gen.KernelIdeal
import proofs.«145835_j3796751090214_1_alg».proof.Proof.Gen.KernelIdeal.Frame
import proofs.«145835_j3796751090214_1_alg».proof.Proof.Gen.ReferenceIdeal
import proofs.«145835_j3796751090214_1_alg».proof.Proof.Gen.ReferenceIdeal.Run
import proofs.«145835_j3796751090214_1_alg».proof.Proof.Gen.ReferenceIdeal.Read
import proofs.«145835_j3796751090214_1_alg».proof.Proof.Gen.Pre_finite_inputs
import proofs.«145835_j3796751090214_1_alg».proof.Proof.KernelValue
import proofs.«145835_j3796751090214_1_alg».proof.Proof.RefValue
import Idealize.ShloMosaic.Adequacy
import Idealize.ShloMosaic.Init

noncomputable section

namespace Cert.Proof

open Idealize.ShloMosaic Idealize.ShloMosaic.TcCoe Idealize.SL.Sem

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- On the extended reals both programs end with the loss of the (agreeing) argument arrays. -/
theorem algebraic : Cert.algebraic_KernelIdeal_ReferenceIdeal := by
  intro m ρ m' ρ' _ hagree
  refine ⟨fun c => fun _ => Cert.CenterLoss.KernelValue.loss m c, Cert.CenterLoss.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _ _).trans (funext fun i => ?_)
  rw [Cert.CenterLoss.Ref.ref_value, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
